-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S8192x8192 : Shape := ⟨2, ![8192, 8192]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S4096x128 .f32) (main_arg1 : FVec F S4096x128 .f32) (main_arg2 : FVec F S8192x8192 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  main_v13
-- ==== Kernel.lean ====
abbrev S4096x128 : Shape := ⟨2, ![4096, 128]⟩
abbrev S8192x8192 : Shape := ⟨2, ![8192, 8192]⟩
abbrev S_ : Shape := ⟨0, ![]⟩
abbrev S4096 : Shape := ⟨1, ![4096]⟩
abbrev S4096x1 : Shape := ⟨2, ![4096, 1]⟩
abbrev S8192x128 : Shape := ⟨2, ![8192, 128]⟩
abbrev S1x1 : Shape := ⟨2, ![1, 1]⟩
abbrev S1024x128 : Shape := ⟨2, ![1024, 128]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩

abbrev nBuf : Space → Nat
  | .hbm => 29
  | .vmem => 7
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S8192x8192, .f32⟩
  | .hbm, ⟨3, _⟩ => ⟨S4096x128, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x128, .f32⟩
  | .hbm, ⟨12, _⟩ => ⟨S4096x128, .f32⟩
  | .hbm, ⟨13, _⟩ => ⟨S4096x128, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x128, .f32⟩
  | .hbm, ⟨22, _⟩ => ⟨S4096x128, .f32⟩
  | .hbm, ⟨23, _⟩ => ⟨S8192x128, .f32⟩
  | .hbm, ⟨24, _⟩ => ⟨S8192x128, .bf16⟩
  | .hbm, ⟨25, _⟩ => ⟨S1x1, .f32⟩
  | .hbm, ⟨26, _⟩ => ⟨S_, .f32⟩
  | .hbm, ⟨27, _⟩ => ⟨S_, .f32⟩
  | .hbm, ⟨28, _⟩ => ⟨S_, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x1024, .f32⟩
  | .local _ .vmem, ⟨5, _⟩ => ⟨S1024x1024, .f32⟩
  | .local _ .vmem, ⟨6, _⟩ => ⟨S1x1, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

class Facts₀ : Prop where
  reducesTo_S4096x128_S4096_d1 : S4096x128.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  concatenates_S4096x128_S4096x128_S8192x128_d0 : Shape.Concatenates [S4096x128, S4096x128] S8192x128 0
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1 : S1x1.ShapeCasts S1x1
  shapeCasts_S1x1_S_ : S1x1.ShapeCasts S_
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .bf16 = 32 ∨ (Rect.block (s := S8192x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .bf16 = 32 ∨ (Rect.block (s := S8192x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_v17) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x128 : Shape := ⟨2, ![4096, 128]⟩
abbrev S8192x8192 : Shape := ⟨2, ![8192, 8192]⟩
abbrev S_ : Shape := ⟨0, ![]⟩
abbrev S4096 : Shape := ⟨1, ![4096]⟩
abbrev S4096x1 : Shape := ⟨2, ![4096, 1]⟩
abbrev S8192x128 : Shape := ⟨2, ![8192, 128]⟩
abbrev S128x8192 : Shape := ⟨2, ![128, 8192]⟩

abbrev nBuf : Space → Nat
  | .hbm => 32
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S8192x8192, .f32⟩
  | .hbm, ⟨3, _⟩ => ⟨S4096x128, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x128, .f32⟩
  | .hbm, ⟨12, _⟩ => ⟨S4096x128, .f32⟩
  | .hbm, ⟨13, _⟩ => ⟨S4096x128, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x128, .f32⟩
  | .hbm, ⟨22, _⟩ => ⟨S4096x128, .f32⟩
  | .hbm, ⟨23, _⟩ => ⟨S8192x128, .f32⟩
  | .hbm, ⟨24, _⟩ => ⟨S128x8192, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  reducesTo_S4096x128_S4096_d1 : S4096x128.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  concatenates_S4096x128_S4096x128_S8192x128_d0 : Shape.Concatenates [S4096x128, S4096x128] S8192x128 0
  transposes_S8192x128_S128x8192_1_0 : S8192x128.Transposes [1, 0] S128x8192
  reducesTo_S8192x8192_S_d0_1 : S8192x8192.ReducesTo [0, 1] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KIBody.lean ====
/-
  The kernel body, run once for each of its two control cases. The body first tests whether the grid point is the
  first one (both coordinates zero); there it clears the one-word accumulator. At every point it then loads the two
  row blocks and the target tile, forms the tile's sum of squared differences, and adds it to the accumulator.
-/
import proofs.«138480_j65335042507212_2_alg».proof.Proof.Gen.KernelIdeal.Launch
import proofs.«138480_j65335042507212_2_alg».proof.Proof.Gen.KernelIdeal.Skeleton
import proofs.«138480_j65335042507212_2_alg».proof.Proof.Gen.KernelIdeal.Points
import Idealize.ShloMosaic.Lib.Pipeline.FrameBody
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The branch condition of the body at grid coordinates `i`: both coordinates are zero. -/
abbrev isFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- Over the 8 × 8 grid the condition holds at the first point only. -/
theorem isFirst_iff : ∀ t : Fin cfg0.N, isFirst (grid0.coords t) ↔ t.val = 0 :=
  (by decide +kernel : ∀ t : Fin grid0.N, isFirst (grid0.coords t) ↔ t.val = 0)

set_option maxHeartbeats 1000000 in
/-- At the first point: the accumulator is cleared and then receives the tile's sum. -/
noncomputable def runFirst (c : Dev nD) (i : grid0.Coords) (arg2 : Memref sig .tc .vmem S1024x128 .bf16) (harg2 : arg2.IsWhole)
    (arg3 : Memref sig .tc .vmem S1024x128 .bf16) (harg3 : arg3.IsWhole) (arg4 : Memref sig .tc .vmem S1024x1024 .f32) (harg4 : arg4.IsWhole)
    (arg5 : Memref sig .tc .vmem S1x1 .f32) (harg5 : arg5.IsWhole) (hc : isFirst i)
    (x0 : Vec F S1024x128 .bf16) (x1 : Vec F S1024x128 .bf16) (x2 : Vec F S1024x1024 .f32) :
    { L : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E (cc0__mse_kernel i arg2 harg2 arg3 harg3 arg4 harg4 arg5 harg5) K } := by
  refine ⟨?_, fun E K => ?run⟩
  case run =>
    simp only [cc0__mse_kernel_eq_skeleton]; unfold cc0__mse_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0
    obtain rfl := harg3.eq_unread hf1
    obtain rfl := harg4.eq_unread hf2
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

set_option maxHeartbeats 1000000 in
/-- At every later point: the accumulator, found at `xo`, receives the tile's sum on top. -/
noncomputable def runLater (c : Dev nD) (i : grid0.Coords) (arg2 : Memref sig .tc .vmem S1024x128 .bf16) (harg2 : arg2.IsWhole)
    (arg3 : Memref sig .tc .vmem S1024x128 .bf16) (harg3 : arg3.IsWhole) (arg4 : Memref sig .tc .vmem S1024x1024 .f32) (harg4 : arg4.IsWhole)
    (arg5 : Memref sig .tc .vmem S1x1 .f32) (harg5 : arg5.IsWhole) (hc : ¬isFirst i)
    (x0 : Vec F S1024x128 .bf16) (x1 : Vec F S1024x128 .bf16) (x2 : Vec F S1024x1024 .f32) (xo : Vec F S1x1 .f32) :
    { L : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E (cc0__mse_kernel i arg2 harg2 arg3 harg3 arg4 harg4 arg5 harg5) K } := by
  refine ⟨?_, fun E K => ?run⟩
  case run =>
    simp only [cc0__mse_kernel_eq_skeleton]; unfold cc0__mse_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0
    obtain rfl := harg3.eq_unread hf1
    obtain rfl := harg4.eq_unread hf2
    obtain rfl := harg5.eq_unread hf3
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Hand

end
-- ==== Proof.KIData.lean ====
/-
  The proof data of the one pipelined call: what each window's staging buffer holds after the body at each of the
  64 grid points. The three input windows keep their blocks (rows i of the normalised rows, rows j of the same
  array, tile (i, j) of the targets); the one-word output window carries the running sum of the tiles' squared
  differences: at the first point the tile's sum added to the cleared word, at each later point the tile's sum
  added to what the point before left.
-/
import proofs.«138480_j65335042507212_2_alg».proof.Proof.Gen.KernelIdeal.Launch
import proofs.«138480_j65335042507212_2_alg».proof.Proof.Gen.KernelIdeal.Skeleton
import proofs.«138480_j65335042507212_2_alg».proof.Proof.Gen.KernelIdeal.Points
import proofs.«138480_j65335042507212_2_alg».proof.Proof.KIBody
import Idealize.ShloMosaic.Lib.Pipeline.FrameBody
import Idealize.ShloMosaic.Lib.Pipeline.FrameSuffix
import Idealize.ShloMosaic.Lib.Pipeline.Value
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-! ## What the two runs store -/

theorem runFirst_pieces (c : Dev nD) (i : grid0.Coords) (arg2 : Memref sig .tc .vmem S1024x128 .bf16) (harg2 : arg2.IsWhole)
    (arg3 : Memref sig .tc .vmem S1024x128 .bf16) (harg3 : arg3.IsWhole) (arg4 : Memref sig .tc .vmem S1024x1024 .f32) (harg4 : arg4.IsWhole)
    (arg5 : Memref sig .tc .vmem S1x1 .f32) (harg5 : arg5.IsWhole) (hc : isFirst i)
    (x0 : Vec F S1024x128 .bf16) (x1 : Vec F S1024x128 .bf16) (x2 : Vec F S1024x1024 .f32) :
    (runFirst c i arg2 harg2 arg3 harg3 arg4 harg4 arg5 harg5 hc x0 x1 x2).1
      = [⟨Rect.unit (s := S1x1) ![0, 0] S1x1.size inb_S1x1_S1x1_0_0, k0_pay2 x0 x1 x2 (k0_pay1 (F := F))⟩,
         ⟨Rect.unit (s := S1x1) ![0, 0] S1x1.size inb_S1x1_S1x1_0_0, k0_pay1 (F := F)⟩] := by
  unfold runFirst
  dsimp only
  sl_unfold_words
  simp only [View.readAt_eq_ld, harg2.read_unread, harg3.read_unread, harg4.read_unread, View.ld_unit_zero (S := S1024x128) hz,
    View.ld_unit_zero (S := S1024x1024) hz]
  rw [View.readCov_unit_zero (S := S1x1) arg5.view hz]

theorem runLater_pieces (c : Dev nD) (i : grid0.Coords) (arg2 : Memref sig .tc .vmem S1024x128 .bf16) (harg2 : arg2.IsWhole)
    (arg3 : Memref sig .tc .vmem S1024x128 .bf16) (harg3 : arg3.IsWhole) (arg4 : Memref sig .tc .vmem S1024x1024 .f32) (harg4 : arg4.IsWhole)
    (arg5 : Memref sig .tc .vmem S1x1 .f32) (harg5 : arg5.IsWhole) (hc : ¬isFirst i)
    (x0 : Vec F S1024x128 .bf16) (x1 : Vec F S1024x128 .bf16) (x2 : Vec F S1024x1024 .f32) (xo : Vec F S1x1 .f32) :
    (runLater c i arg2 harg2 arg3 harg3 arg4 harg4 arg5 harg5 hc x0 x1 x2 xo).1
      = [⟨Rect.unit (s := S1x1) ![0, 0] S1x1.size inb_S1x1_S1x1_0_0, k0_pay2 x0 x1 x2 xo⟩] := by
  unfold runLater
  dsimp only
  simp only [View.readAt_eq_ld, harg2.read_unread, harg3.read_unread, harg4.read_unread, harg5.read_unread, View.ld_unit_zero (S := S1024x128) hz,
    View.ld_unit_zero (S := S1024x1024) hz, View.ld_unit_zero (S := S1x1) hz]

/-- A one-word buffer after a last whole store reads that store's payload. -/
theorem read_last_store (arg5 : Memref sig .tc .vmem S1x1 .f32) (f : arg5.view.ty.Contents (Elt F)) (w : Vec F S1x1 .f32)
    (L : List (View.Piece (Elt F) S1x1 .f32)) :
    arg5.view.read (Elt F) (arg5.view.writes (Elt F) f (⟨Rect.unit (s := S1x1) ![0, 0] S1x1.size inb_S1x1_S1x1_0_0, w⟩ :: L)) = w := by
  rw [View.read_writes_eq_canon _ _ _ (fun y => ⟨_, List.mem_cons_self, View.mem_set_unit_zero hz inb_S1x1_S1x1_0_0 y⟩), View.canon_cons_unit_zero hz]

/-! ## @main around the call -/

/-- The buffers of core `c` when the call is entered: the launch contents after the host operations before it. -/
abbrev V (c : Dev nD) (b : Ref sig .tc) : Buf (Elt F) ((c : Thread nD τ).loc b) :=
  StableHlo.after [hostOps0 (F := F)].flatten (fun b => m (c, b)) b

theorem hostOps0_fresh : (hostOps0 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
    (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The running sum -/

/-- The accumulator after the body at point `n`. -/
def accAt (c : Dev nD) : (n : ℕ) → n < cfg0.N → Vec F S1x1 .f32
  | 0, hn => k0_pay2 (iblk m c 0 ⟨0, hn⟩) (iblk m c 1 ⟨0, hn⟩) (iblk m c 2 ⟨0, hn⟩) (k0_pay1 (F := F))
  | n + 1, hn => k0_pay2 (iblk m c 0 ⟨n + 1, hn⟩) (iblk m c 1 ⟨n + 1, hn⟩) (iblk m c 2 ⟨n + 1, hn⟩) (accAt c n (Nat.lt_of_succ_lt hn))

theorem accAt_first (c : Dev nD) (t : Fin cfg0.N) (h0 : t.val = 0) :
    accAt m c t.val t.isLt = k0_pay2 (iblk m c 0 t) (iblk m c 1 t) (iblk m c 2 t) (k0_pay1 (F := F)) := by
  obtain ⟨n, hn⟩ := t
  cases n with
  | zero => rfl
  | succ n => exact absurd h0 (Nat.succ_ne_zero n)

theorem accAt_later (c : Dev nD) (t : Fin cfg0.N) (h0 : ¬t.val = 0) :
    accAt m c t.val t.isLt = k0_pay2 (iblk m c 0 t) (iblk m c 1 t) (iblk m c 2 t)
      (accAt m c (t.val - 1) (Nat.lt_of_le_of_lt (Nat.sub_le _ _) t.isLt)) := by
  obtain ⟨n, hn⟩ := t
  cases n with
  | zero => exact absurd rfl h0
  | succ n => rfl

/-! ## The proof data -/

/-- The two windows on the one array of normalised rows each hold half of it; the targets and the result are held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => accAt m c t.val t.isLt
  Φ _ := iprop(emp)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = accAt m c t.val t.isLt := by dsimp only [dats]

/-- An input window's buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-- After the first point the accumulator's buffer holds what the point before left: it is written back only after the last point. -/
theorem before_3 (c : Dev nD) (t : Fin cfg0.N) (h0 : ¬t.val = 0) (d) :
    (dats m 0 c).before 3 t d = accAt m c (t.val - 1) (Nat.lt_of_le_of_lt (Nat.sub_le _ _) t.isLt) := by
  have hN : t.val < 64 := lt_of_lt_of_eq t.isLt (show cfg0.N = 64 from N_0)
  rw [Dat.before_out_kept _ 3 rfl t h0 (Bool.eq_false_iff.mpr fun h => by have := (flush0_3 _).mp h; dsimp only at this; omega)
    (fun _ => rfl) (fun _ _ => rfl)]
  dsimp only [dats]

/-! ## The body obligation -/

abbrev ms0 (t : Fin cfg0.N) : Memref sig .tc .vmem S1024x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1 .f32 := win0_3.stage (cfg0.slots t 3)
abbrev hs3 (t : Fin cfg0.N) : (ms3 t).IsWhole := hstage0_3 ((cfg0.slots t 3).cast nbuf0_3)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  by_cases h0 : t.val = 0
  · rw [accAt_first m c t h0]
    iintro ⟨HΦ, Ho, ⟨%d0, H0⟩, ⟨%d1, H1⟩, ⟨%d2, H2⟩, ⟨%d3, H3⟩⟩
    iapply ((runFirst c (grid0.coords t) _ _ _ _ _ _ _ _ ((isFirst_iff t).mpr h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro
    rw [runFirst_pieces]
    exact read_last_store _ _ _ _
  · rw [accAt_later m c t h0]
    simp only [before_3 m c t h0]
    iintro ⟨HΦ, Ho, ⟨%d0, H0⟩, ⟨%d1, H1⟩, ⟨%d2, H2⟩, ⟨%d3, H3⟩⟩
    iapply ((runLater c (grid0.coords t) _ _ _ _ _ _ _ _ (fun h => h0 ((isFirst_iff t).mp h)) (iblk m c 0 t) (iblk m c 1 t) (iblk m c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro
    rw [runLater_pieces]
    exact read_last_store _ _ _ _

theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KIRun.lean ====
/-
  The launch of the one pipelined call with the host operations around it. The array of normalised rows is read by
  two windows, so at entry it is dealt to them in two halves; nothing writes it. After the call three host operations
  read the one-word result: they run on that word and on the buffers no window stages. The run ends with every
  window's array at what the proof data compute and every other buffer at the contents after those three operations.
-/
import proofs.«138480_j65335042507212_2_alg».proof.Proof.Gen.KernelIdeal.Launch
import proofs.«138480_j65335042507212_2_alg».proof.Proof.Gen.KernelIdeal.Skeleton
import proofs.«138480_j65335042507212_2_alg».proof.Proof.Gen.KernelIdeal.Points
import proofs.«138480_j65335042507212_2_alg».proof.Proof.KIData
import Idealize.ShloMosaic.Lib.Pipeline.FrameSuffix
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem img_arr : (Finset.univ.image (Pipeline.arrRef spec0) : Finset (Ref sig .tc)) = {main_v17, main_arg2, main_v18} := by decide

/-- At entry the array of normalised rows is dealt in two halves to the two windows on it. -/
theorem hsplit (c : Dev nD) : (Pipeline.arrBufs (Ix := Unit) (Name := ℕ) (U := UR sig nD τ) (Lvl := ℕ) spec0 c (V m c) : sProp 𝕄)
    ⊢ (dats m 0 c).arrays ((dats m 0 c).arrAt · 0) := by
  unfold Pipeline.arrBufs Dat.arrays
  rw [img_arr, bigSep_W0, BI.bigSep_insert (by decide), BI.bigSep_insert (by decide), BI.bigSep_singleton,
    (arr_whole0 0).set_eq_univ, (arr_whole0 2).set_eq_univ, (arr_whole0 3).set_eq_univ]
  show iprop(((c : Thread nD τ).loc main_v17 ↦{fullShare} V m c main_v17) ∗ ((c : Thread nD τ).loc main_arg2 ↦{fullShare} V m c main_arg2)
      ∗ ((c : Thread nD τ).loc main_v18 ↦{fullShare} V m c main_v18)) ⊢ _
  iintro ⟨H17, H2, H18⟩
  ihave H17 := (pointsTo_share (PosShare.mem_left_op_right fullShare)).1 $$ H17
  icases H17 with ⟨Ha, Hb⟩
  isplitl [Ha]; · iexact Ha
  isplitl [Hb]; · iexact Hb
  isplitl [H2]; · iexact H2
  iexact H18

/-! ## The three host operations after the call -/

/-- The buffers when the call returns: the result word at what the call left, every other one as the call found it. -/
def Vexit (c : Dev nD) : Valuation τ sig (Elt F) :=
  open Classical in
  Function.update (StableHlo.after [hostOps0 (F := F)].flatten (fun b => m (c, b))) (Proc.devRef .tc main_v18) ((dats m 0 c).arrAt 3 cfg0.N)

/-- The buffers after the three operations that follow the call. -/
def Vend (c : Dev nD) : Valuation τ sig (Elt F) := StableHlo.after [hostOps1 (F := F)].flatten (Vexit m c)

theorem Vexit_v18 (c : Dev nD) : Vexit m c (Proc.devRef .tc main_v18) = (dats m 0 c).arrAt 3 cfg0.N := by
  unfold Vexit; exact Function.update_self ..

theorem Vexit_of_ne (c : Dev nD) (b : Ref sig .tc) (hb : b ≠ main_v18) : Vexit m c (Proc.devRef .tc b) = V m c b := by
  unfold Vexit; exact Function.update_of_ne (fun e => hb (Proc.devRef_injective _ e)) ..

theorem v18_not_rest : main_v18 ∉ Pipeline.restRefs sig spec0 := by
  simp only [Finset.mem_sdiff, Finset.mem_image, Finset.mem_univ, true_and, not_and, not_not]
  exact fun _ => ⟨3, rfl⟩

/-- What the three operations may touch: the result word and the buffers no window stages. -/
def tailSet : Finset (DevRef τ sig) :=
  (insert main_v18 (Pipeline.restRefs sig spec0)).map ⟨Proc.devRef (sig := sig) .tc, Proc.devRef_injective _⟩

theorem held_tail (c : Dev nD) (W : Valuation τ sig (Elt F)) :
    (StableHlo.held (c.tc : Thread nD τ) tailSet W : sProp 𝕄)
      = iprop((((c.tc : Thread nD τ).loc main_v18) ↦{fullShare} W (Proc.devRef .tc main_v18))
          ∗ bigSep (Pipeline.restRefs sig spec0) fun b => ((c.tc : Thread nD τ).loc b) ↦{fullShare} W (Proc.devRef .tc b)) := by
  unfold StableHlo.held tailSet
  rw [bigSep_map, BI.bigSep_insert v18_not_rest]
  rfl

theorem hostOps1_fresh : (hostOps1 : List (HloOp τ sig (Elt F))).Forall fun op => op.fresh = ∅ := by
  simp only [List.Forall]; repeat' constructor

theorem mem_tailSet_v18 : Proc.devRef .tc main_v18 ∈ tailSet :=
  Finset.mem_map_of_mem _ (Finset.mem_insert_self _ _)
theorem mem_tailSet_rest (b : Ref sig .tc) (hs : b.isScoped = false) (ha : ∀ w, (spec0 w).arr.view.ref ≠ b) : Proc.devRef .tc b ∈ tailSet :=
  Finset.mem_map_of_mem _ (Finset.mem_insert_of_mem (Pipeline.mem_restRefs_of b hs ha))

theorem tail_sub : ∀ ops ∈ ([hostOps1] : List (List (HloOp τ sig (Elt F)))), ∀ op ∈ ops, op.bufs ⊆ tailSet := by
  have h19 : Proc.devRef .tc main_v19 ∈ tailSet := mem_tailSet_rest main_v19 rfl (by decide)
  have hc3 : Proc.devRef .tc main_cst_3 ∈ tailSet := mem_tailSet_rest main_cst_3 rfl (by decide)
  have h20 : Proc.devRef .tc main_v20 ∈ tailSet := mem_tailSet_rest main_v20 rfl (by decide)
  intro ops hops op hop
  simp only [List.mem_cons, List.mem_nil_iff, or_false] at hops
  subst hops
  simp only [hostOps1, List.mem_cons, List.mem_nil_iff, or_false] at hop
  rcases hop with rfl | rfl | rfl
  · rw [StableHlo.reshape_bufs]; intro b hb
    simp only [Finset.mem_insert, Finset.mem_singleton] at hb
    rcases hb with rfl | rfl
    · exact mem_tailSet_v18
    · exact h19
  · rw [StableHlo.nullary_bufs]; intro b hb
    simp only [Finset.mem_singleton] at hb
    subst hb; exact hc3
  · rw [StableHlo.binary_bufs]; intro b hb
    simp only [Finset.mem_insert, Finset.mem_singleton] at hb
    rcases hb with rfl | rfl | rfl
    · exact h19
    · exact hc3
    · exact h20

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- None of the three operations writes the result word. -/
theorem Vend_v18 (c : Dev nD) : Vend m c (Proc.devRef .tc main_v18) = (dats m 0 c).arrAt 3 cfg0.N := by
  unfold Vend
  rw [StableHlo.after_of_forall_not_mem (b := Proc.devRef .tc main_v18) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide))), Vexit_v18]

/-! ## The tail, run from the call's exit -/

/-- The buffers no window stages, after the three operations. -/
def Zend (c : Dev nD) : sProp 𝕄 :=
  bigSep (Pipeline.restRefs sig spec0) fun b => ((c.tc : Thread nD τ).loc b) ↦{fullShare} Vend m c (Proc.devRef .tc b)

theorem held_exit (c : Dev nD) : (StableHlo.held (c.tc : Thread nD τ) tailSet (Vexit m c) : sProp 𝕄)
    = iprop((((c.tc : Thread nD τ).loc main_v18) ↦{fullShare} (dats m 0 c).arrAt 3 cfg0.N)
        ∗ Pipeline.unscopedRest (Ix := Unit) (Name := ℕ) (U := UR sig nD τ) (Lvl := ℕ) spec0 c (V m c)) := by
  have h : (bigSep (Pipeline.restRefs sig spec0) fun b => ((c.tc : Thread nD τ).loc b) ↦{fullShare} Vexit m c (Proc.devRef .tc b) : sProp 𝕄)
      = Pipeline.unscopedRest (Ix := Unit) (Name := ℕ) (U := UR sig nD τ) (Lvl := ℕ) spec0 c (V m c) :=
    bigSep_congr fun b hb => by rw [Vexit_of_ne m c b (ne_of_mem_of_not_mem hb v18_not_rest)]
  rw [held_tail, Vexit_v18, h]

theorem held_end (c : Dev nD) : (StableHlo.held (c.tc : Thread nD τ) tailSet (Vend m c) : sProp 𝕄)
    = iprop((((c.tc : Thread nD τ).loc main_v18) ↦{fullShare} (dats m 0 c).arrAt 3 cfg0.N) ∗ Zend m c) := by
  rw [held_tail, Vend_v18]
  rfl

set_option backward.isDefEq.respectTransparency.types false in
theorem htail (c : Dev nD) (Q' : PUnit → sProp 𝕄) :
    iprop((iprop((dats m 0 c).arrays ((dats m 0 c).arrAt · cfg0.N) ∗ Zend m c) -∗ Q' ⟨⟩)
        ∗ boundary (c.tc : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (Pipeline.defs (fun q => (cfgs q).toPCfg (Val := Elt F)) defs₀) (Variants.lift Variants.none) (c.tc : Thread nD τ) none) Set.univ
          (Pipeline.chain [StableHlo.seq (hostOps1 (F := F))]) Q' := by
  unfold Dat.arrays
  rw [bigSep_W0, (arr_whole0 0).set_eq_univ, (arr_whole0 2).set_eq_univ, (arr_whole0 3).set_eq_univ]
  iintro ⟨Hk, Hb, ⟨Ha0, Ha1, Ha2, Ha3⟩, HZ⟩
  ihave Hw := (Pipeline.wp_seqs_then (fun q => (cfgs q).toPCfg (Val := Elt F)) defs₀ Variants.none c tailSet [] [hostOps1] tail_sub tail_fresh (Vexit m c)) $$ [Hb Ha3 HZ]
  · rw [held_exit]
    isplitl [Hb]; · iexact Hb
    isplitl [Ha3]; · iexact Ha3
    iexact HZ
  iapply Hw
  iintro Hb
  have he := held_end m c
  unfold Vend at he
  rw [Pipeline.chain_nil, wp_pure, he]
  imodintro
  iapply Hk
  icases Hb with ⟨-, H3, HZ⟩
  isplitr [HZ]
  · isplitl [Ha0]; · iexact Ha0
    isplitl [Ha1]; · iexact Ha1
    isplitl [Ha2]; · iexact Ha2
    iexact H3
  iexact HZ

/-! ## The run -/

/-- Where the run ends: every window's array at what the proof data compute, every other unscoped buffer at its
    contents after the three operations that follow the call. -/
def Post (r : PUnit × MemSt nD τ sig (Elt F)) : Prop :=
  ∀ c : Dev nD, (∀ w, r.2.mem ((spec0 w).arr.view.loc (c.tc : Thread nD τ)) = (dats m 0 c).arrAt w cfg0.N)
    ∧ ∀ b ∈ Pipeline.restRefs sig spec0, r.2.mem ((c.tc : Thread nD τ).loc b) = Vend m c (Proc.devRef .tc b)

set_option backward.isDefEq.respectTransparency.types false in
theorem run_main : θ_run defs (onTc (τ := τ) (main (F := F))) (s₀ m ρ) (Post m) :=
  Pipeline.θ_run_region_noSem_pf_tail (fun q => (cfgs q).toPCfg (Val := Elt F)) (fun q => (cfgs q).toPCfg_adm) (dats m) () cellOf_inj (0 : Fin 1)
    winFacts₀0 (Pipeline.PreFacts.none _) emb₁ defs₀ Variants.none m ρ main (fun _ => Pipeline.chain [StableHlo.seq hostOps1])
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m) (hmain := hmain m Variants.none)
    (hsplit := hsplit m)
    (hpf := fun _ k => k.elim0)
    (X := fun _ => iprop(emp)) (Y := fun _ => iprop(emp))
    (Z := fun c => Pipeline.unscopedRest (Ix := Unit) (Name := ℕ) (U := UR sig nD τ) (Lvl := ℕ) spec0 c (V m c))
    (Z' := Zend m)
    (hX := fun c => by rw [Pipeline.unscopedRestP_none]; iintro H; isplitr; · iempintro
                       iexact H)
    (hin := fun _ => by iintro -; iempintro)
    (hout := fun c => by rw [scopedRest0_eq]; iintro -; isplitr <;> iempintro)
    (htail := htail m)
    (QY := fun c s => ∀ b ∈ Pipeline.restRefs sig spec0, s.mem ((c.tc : Thread nD τ).loc b) = Vend m c (Proc.devRef .tc b))
    (hY := fun c s' => by
      iintro ⟨-, HU, HSI⟩
      unfold Zend
      imodintro
      iapply (pointsTo_read_all (Pipeline.restRefs sig spec0) (fun b => (c.tc : Thread nD τ).loc b) (fun b => Vend m c (Proc.devRef .tc b)) s')
      isplitl [HU] <;> iassumption)
    (hQ := fun s h c => ⟨(h c).1, (h c).2.2⟩)

end Cert.KernelIdeal.Hand

end
-- ==== Proof.KBody.lean ====
/-
  The kernel body, run once for each of its two control cases. The body first tests whether the grid point is the
  first one (both coordinates zero); there it clears the one-word accumulator. At every point it then loads the two
  row blocks and the target tile, forms the tile's sum of squared differences, and adds it to the accumulator.
-/
import proofs.«138480_j65335042507212_2_alg».proof.Proof.Gen.Kernel.Launch
import proofs.«138480_j65335042507212_2_alg».proof.Proof.Gen.Kernel.Skeleton
import proofs.«138480_j65335042507212_2_alg».proof.Proof.Gen.Kernel.Points
import Idealize.ShloMosaic.Lib.Pipeline.FrameBody
import Idealize.ShloMosaic.Lib.Tactic
import proofs.«138480_j65335042507212_2_alg».proof.Proof.KIRun
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The branch condition of the body at grid coordinates `i`: both coordinates are zero. -/
abbrev isFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- Over the 8 × 8 grid the condition holds at the first point only. -/
theorem isFirst_iff : ∀ t : Fin cfg0.N, isFirst (grid0.coords t) ↔ t.val = 0 :=
  (by decide +kernel : ∀ t : Fin grid0.N, isFirst (grid0.coords t) ↔ t.val = 0)

set_option maxHeartbeats 1000000 in
/-- At the first point: the accumulator is cleared and then receives the tile's sum. -/
noncomputable def runFirst (c : Dev nD) (i : grid0.Coords) (arg2 : Memref sig .tc .vmem S1024x128 .bf16) (harg2 : arg2.IsWhole)
    (arg3 : Memref sig .tc .vmem S1024x128 .bf16) (harg3 : arg3.IsWhole) (arg4 : Memref sig .tc .vmem S1024x1024 .f32) (harg4 : arg4.IsWhole)
    (arg5 : Memref sig .tc .vmem S1x1 .f32) (harg5 : arg5.IsWhole) (hc : isFirst i)
    (x0 : Vec F S1024x128 .bf16) (x1 : Vec F S1024x128 .bf16) (x2 : Vec F S1024x1024 .f32) :
    { L : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E (cc0__mse_kernel i arg2 harg2 arg3 harg3 arg4 harg4 arg5 harg5) K } := by
  refine ⟨?_, fun E K => ?run⟩
  case run =>
    simp only [cc0__mse_kernel_eq_skeleton]; unfold cc0__mse_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0
    obtain rfl := harg3.eq_unread hf1
    obtain rfl := harg4.eq_unread hf2
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

set_option maxHeartbeats 1000000 in
/-- At every later point: the accumulator, found at `xo`, receives the tile's sum on top. -/
noncomputable def runLater (c : Dev nD) (i : grid0.Coords) (arg2 : Memref sig .tc .vmem S1024x128 .bf16) (harg2 : arg2.IsWhole)
    (arg3 : Memref sig .tc .vmem S1024x128 .bf16) (harg3 : arg3.IsWhole) (arg4 : Memref sig .tc .vmem S1024x1024 .f32) (harg4 : arg4.IsWhole)
    (arg5 : Memref sig .tc .vmem S1x1 .f32) (harg5 : arg5.IsWhole) (hc : ¬isFirst i)
    (x0 : Vec F S1024x128 .bf16) (x1 : Vec F S1024x128 .bf16) (x2 : Vec F S1024x1024 .f32) (xo : Vec F S1x1 .f32) :
    { L : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E (cc0__mse_kernel i arg2 harg2 arg3 harg3 arg4 harg4 arg5 harg5) K } := by
  refine ⟨?_, fun E K => ?run⟩
  case run =>
    simp only [cc0__mse_kernel_eq_skeleton]; unfold cc0__mse_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0
    obtain rfl := harg3.eq_unread hf1
    obtain rfl := harg4.eq_unread hf2
    obtain rfl := harg5.eq_unread hf3
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Hand

end
-- ==== Proof.KData.lean ====
/-
  The proof data of the one pipelined call: what each window's staging buffer holds after the body at each of the
  64 grid points. The three input windows keep their blocks (rows i of the normalised rows, rows j of the same
  array, tile (i, j) of the targets); the one-word output window carries the running sum of the tiles' squared
  differences: at the first point the tile's sum added to the cleared word, at each later point the tile's sum
  added to what the point before left.
-/
import proofs.«138480_j65335042507212_2_alg».proof.Proof.Gen.Kernel.Launch
import proofs.«138480_j65335042507212_2_alg».proof.Proof.Gen.Kernel.Skeleton
import proofs.«138480_j65335042507212_2_alg».proof.Proof.Gen.Kernel.Points
import proofs.«138480_j65335042507212_2_alg».proof.Proof.KBody
import Idealize.ShloMosaic.Lib.Pipeline.FrameBody
import Idealize.ShloMosaic.Lib.Pipeline.FrameSuffix
import Idealize.ShloMosaic.Lib.Pipeline.Value
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-! ## What the two runs store -/

theorem runFirst_pieces (c : Dev nD) (i : grid0.Coords) (arg2 : Memref sig .tc .vmem S1024x128 .bf16) (harg2 : arg2.IsWhole)
    (arg3 : Memref sig .tc .vmem S1024x128 .bf16) (harg3 : arg3.IsWhole) (arg4 : Memref sig .tc .vmem S1024x1024 .f32) (harg4 : arg4.IsWhole)
    (arg5 : Memref sig .tc .vmem S1x1 .f32) (harg5 : arg5.IsWhole) (hc : isFirst i)
    (x0 : Vec F S1024x128 .bf16) (x1 : Vec F S1024x128 .bf16) (x2 : Vec F S1024x1024 .f32) :
    (runFirst c i arg2 harg2 arg3 harg3 arg4 harg4 arg5 harg5 hc x0 x1 x2).1
      = [⟨Rect.unit (s := S1x1) ![0, 0] S1x1.size inb_S1x1_S1x1_0_0, k0_pay2 x0 x1 x2 (k0_pay1 (F := F))⟩,
         ⟨Rect.unit (s := S1x1) ![0, 0] S1x1.size inb_S1x1_S1x1_0_0, k0_pay1 (F := F)⟩] := by
  unfold runFirst
  dsimp only
  sl_unfold_words
  simp only [View.readAt_eq_ld, harg2.read_unread, harg3.read_unread, harg4.read_unread, View.ld_unit_zero (S := S1024x128) hz,
    View.ld_unit_zero (S := S1024x1024) hz]
  rw [View.readCov_unit_zero (S := S1x1) arg5.view hz]

theorem runLater_pieces (c : Dev nD) (i : grid0.Coords) (arg2 : Memref sig .tc .vmem S1024x128 .bf16) (harg2 : arg2.IsWhole)
    (arg3 : Memref sig .tc .vmem S1024x128 .bf16) (harg3 : arg3.IsWhole) (arg4 : Memref sig .tc .vmem S1024x1024 .f32) (harg4 : arg4.IsWhole)
    (arg5 : Memref sig .tc .vmem S1x1 .f32) (harg5 : arg5.IsWhole) (hc : ¬isFirst i)
    (x0 : Vec F S1024x128 .bf16) (x1 : Vec F S1024x128 .bf16) (x2 : Vec F S1024x1024 .f32) (xo : Vec F S1x1 .f32) :
    (runLater c i arg2 harg2 arg3 harg3 arg4 harg4 arg5 harg5 hc x0 x1 x2 xo).1
      = [⟨Rect.unit (s := S1x1) ![0, 0] S1x1.size inb_S1x1_S1x1_0_0, k0_pay2 x0 x1 x2 xo⟩] := by
  unfold runLater
  dsimp only
  simp only [View.readAt_eq_ld, harg2.read_unread, harg3.read_unread, harg4.read_unread, harg5.read_unread, View.ld_unit_zero (S := S1024x128) hz,
    View.ld_unit_zero (S := S1024x1024) hz, View.ld_unit_zero (S := S1x1) hz]

/-- A one-word buffer after a last whole store reads that store's payload. -/
theorem read_last_store (arg5 : Memref sig .tc .vmem S1x1 .f32) (f : arg5.view.ty.Contents (Elt F)) (w : Vec F S1x1 .f32)
    (L : List (View.Piece (Elt F) S1x1 .f32)) :
    arg5.view.read (Elt F) (arg5.view.writes (Elt F) f (⟨Rect.unit (s := S1x1) ![0, 0] S1x1.size inb_S1x1_S1x1_0_0, w⟩ :: L)) = w := by
  rw [View.read_writes_eq_canon _ _ _ (fun y => ⟨_, List.mem_cons_self, View.mem_set_unit_zero hz inb_S1x1_S1x1_0_0 y⟩), View.canon_cons_unit_zero hz]

/-! ## @main around the call -/

/-- The buffers of core `c` when the call is entered: the launch contents after the host operations before it. -/
abbrev V (c : Dev nD) (b : Ref sig .tc) : Buf (Elt F) ((c : Thread nD τ).loc b) :=
  StableHlo.after [hostOps0 (F := F)].flatten (fun b => m (c, b)) b

theorem hostOps0_fresh : (hostOps0 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
    (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The running sum -/

/-- The accumulator after the body at point `n`. -/
def accAt (c : Dev nD) : (n : ℕ) → n < cfg0.N → Vec F S1x1 .f32
  | 0, hn => k0_pay2 (iblk m c 0 ⟨0, hn⟩) (iblk m c 1 ⟨0, hn⟩) (iblk m c 2 ⟨0, hn⟩) (k0_pay1 (F := F))
  | n + 1, hn => k0_pay2 (iblk m c 0 ⟨n + 1, hn⟩) (iblk m c 1 ⟨n + 1, hn⟩) (iblk m c 2 ⟨n + 1, hn⟩) (accAt c n (Nat.lt_of_succ_lt hn))

theorem accAt_first (c : Dev nD) (t : Fin cfg0.N) (h0 : t.val = 0) :
    accAt m c t.val t.isLt = k0_pay2 (iblk m c 0 t) (iblk m c 1 t) (iblk m c 2 t) (k0_pay1 (F := F)) := by
  obtain ⟨n, hn⟩ := t
  cases n with
  | zero => rfl
  | succ n => exact absurd h0 (Nat.succ_ne_zero n)

theorem accAt_later (c : Dev nD) (t : Fin cfg0.N) (h0 : ¬t.val = 0) :
    accAt m c t.val t.isLt = k0_pay2 (iblk m c 0 t) (iblk m c 1 t) (iblk m c 2 t)
      (accAt m c (t.val - 1) (Nat.lt_of_le_of_lt (Nat.sub_le _ _) t.isLt)) := by
  obtain ⟨n, hn⟩ := t
  cases n with
  | zero => exact absurd rfl h0
  | succ n => rfl

/-! ## The proof data -/

/-- The two windows on the one array of normalised rows each hold half of it; the targets and the result are held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => accAt m c t.val t.isLt
  Φ _ := iprop(emp)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = accAt m c t.val t.isLt := by dsimp only [dats]

/-- An input window's buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-- After the first point the accumulator's buffer holds what the point before left: it is written back only after the last point. -/
theorem before_3 (c : Dev nD) (t : Fin cfg0.N) (h0 : ¬t.val = 0) (d) :
    (dats m 0 c).before 3 t d = accAt m c (t.val - 1) (Nat.lt_of_le_of_lt (Nat.sub_le _ _) t.isLt) := by
  have hN : t.val < 64 := lt_of_lt_of_eq t.isLt (show cfg0.N = 64 from N_0)
  rw [Dat.before_out_kept _ 3 rfl t h0 (Bool.eq_false_iff.mpr fun h => by have := (flush0_3 _).mp h; dsimp only at this; omega)
    (fun _ => rfl) (fun _ _ => rfl)]
  dsimp only [dats]

/-! ## The body obligation -/

abbrev ms0 (t : Fin cfg0.N) : Memref sig .tc .vmem S1024x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1 .f32 := win0_3.stage (cfg0.slots t 3)
abbrev hs3 (t : Fin cfg0.N) : (ms3 t).IsWhole := hstage0_3 ((cfg0.slots t 3).cast nbuf0_3)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  by_cases h0 : t.val = 0
  · rw [accAt_first m c t h0]
    iintro ⟨HΦ, Ho, ⟨%d0, H0⟩, ⟨%d1, H1⟩, ⟨%d2, H2⟩, ⟨%d3, H3⟩⟩
    iapply ((runFirst c (grid0.coords t) _ _ _ _ _ _ _ _ ((isFirst_iff t).mpr h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro
    rw [runFirst_pieces]
    exact read_last_store _ _ _ _
  · rw [accAt_later m c t h0]
    simp only [before_3 m c t h0]
    iintro ⟨HΦ, Ho, ⟨%d0, H0⟩, ⟨%d1, H1⟩, ⟨%d2, H2⟩, ⟨%d3, H3⟩⟩
    iapply ((runLater c (grid0.coords t) _ _ _ _ _ _ _ _ (fun h => h0 ((isFirst_iff t).mp h)) (iblk m c 0 t) (iblk m c 1 t) (iblk m c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro
    rw [runLater_pieces]
    exact read_last_store _ _ _ _

theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KRun.lean ====
/-
  The launch of the one pipelined call with the host operations around it. The array of normalised rows is read by
  two windows, so at entry it is dealt to them in two halves; nothing writes it. After the call three host operations
  read the one-word result: they run on that word and on the buffers no window stages. The run ends with every
  window's array at what the proof data compute and every other buffer at the contents after those three operations.
-/
import proofs.«138480_j65335042507212_2_alg».proof.Proof.Gen.Kernel.Launch
import proofs.«138480_j65335042507212_2_alg».proof.Proof.Gen.Kernel.Skeleton
import proofs.«138480_j65335042507212_2_alg».proof.Proof.Gen.Kernel.Points
import proofs.«138480_j65335042507212_2_alg».proof.Proof.KData
import Idealize.ShloMosaic.Lib.Pipeline.FrameSuffix
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem img_arr : (Finset.univ.image (Pipeline.arrRef spec0) : Finset (Ref sig .tc)) = {main_v17, main_arg2, main_v18} := by decide

/-- At entry the array of normalised rows is dealt in two halves to the two windows on it. -/
theorem hsplit (c : Dev nD) : (Pipeline.arrBufs (Ix := Unit) (Name := ℕ) (U := UR sig nD τ) (Lvl := ℕ) spec0 c (V m c) : sProp 𝕄)
    ⊢ (dats m 0 c).arrays ((dats m 0 c).arrAt · 0) := by
  unfold Pipeline.arrBufs Dat.arrays
  rw [img_arr, bigSep_W0, BI.bigSep_insert (by decide), BI.bigSep_insert (by decide), BI.bigSep_singleton,
    (arr_whole0 0).set_eq_univ, (arr_whole0 2).set_eq_univ, (arr_whole0 3).set_eq_univ]
  show iprop(((c : Thread nD τ).loc main_v17 ↦{fullShare} V m c main_v17) ∗ ((c : Thread nD τ).loc main_arg2 ↦{fullShare} V m c main_arg2)
      ∗ ((c : Thread nD τ).loc main_v18 ↦{fullShare} V m c main_v18)) ⊢ _
  iintro ⟨H17, H2, H18⟩
  ihave H17 := (pointsTo_share (PosShare.mem_left_op_right fullShare)).1 $$ H17
  icases H17 with ⟨Ha, Hb⟩
  isplitl [Ha]; · iexact Ha
  isplitl [Hb]; · iexact Hb
  isplitl [H2]; · iexact H2
  iexact H18

/-! ## The three host operations after the call -/

/-- The buffers when the call returns: the result word at what the call left, every other one as the call found it. -/
def Vexit (c : Dev nD) : Valuation τ sig (Elt F) :=
  open Classical in
  Function.update (StableHlo.after [hostOps0 (F := F)].flatten (fun b => m (c, b))) (Proc.devRef .tc main_v18) ((dats m 0 c).arrAt 3 cfg0.N)

/-- The buffers after the three operations that follow the call. -/
def Vend (c : Dev nD) : Valuation τ sig (Elt F) := StableHlo.after [hostOps1 (F := F)].flatten (Vexit m c)

theorem Vexit_v18 (c : Dev nD) : Vexit m c (Proc.devRef .tc main_v18) = (dats m 0 c).arrAt 3 cfg0.N := by
  unfold Vexit; exact Function.update_self ..

theorem Vexit_of_ne (c : Dev nD) (b : Ref sig .tc) (hb : b ≠ main_v18) : Vexit m c (Proc.devRef .tc b) = V m c b := by
  unfold Vexit; exact Function.update_of_ne (fun e => hb (Proc.devRef_injective _ e)) ..

theorem v18_not_rest : main_v18 ∉ Pipeline.restRefs sig spec0 := by
  simp only [Finset.mem_sdiff, Finset.mem_image, Finset.mem_univ, true_and, not_and, not_not]
  exact fun _ => ⟨3, rfl⟩

/-- What the three operations may touch: the result word and the buffers no window stages. -/
def tailSet : Finset (DevRef τ sig) :=
  (insert main_v18 (Pipeline.restRefs sig spec0)).map ⟨Proc.devRef (sig := sig) .tc, Proc.devRef_injective _⟩

theorem held_tail (c : Dev nD) (W : Valuation τ sig (Elt F)) :
    (StableHlo.held (c.tc : Thread nD τ) tailSet W : sProp 𝕄)
      = iprop((((c.tc : Thread nD τ).loc main_v18) ↦{fullShare} W (Proc.devRef .tc main_v18))
          ∗ bigSep (Pipeline.restRefs sig spec0) fun b => ((c.tc : Thread nD τ).loc b) ↦{fullShare} W (Proc.devRef .tc b)) := by
  unfold StableHlo.held tailSet
  rw [bigSep_map, BI.bigSep_insert v18_not_rest]
  rfl

theorem hostOps1_fresh : (hostOps1 : List (HloOp τ sig (Elt F))).Forall fun op => op.fresh = ∅ := by
  simp only [List.Forall]; repeat' constructor

theorem mem_tailSet_v18 : Proc.devRef .tc main_v18 ∈ tailSet :=
  Finset.mem_map_of_mem _ (Finset.mem_insert_self _ _)
theorem mem_tailSet_rest (b : Ref sig .tc) (hs : b.isScoped = false) (ha : ∀ w, (spec0 w).arr.view.ref ≠ b) : Proc.devRef .tc b ∈ tailSet :=
  Finset.mem_map_of_mem _ (Finset.mem_insert_of_mem (Pipeline.mem_restRefs_of b hs ha))

theorem tail_sub : ∀ ops ∈ ([hostOps1] : List (List (HloOp τ sig (Elt F)))), ∀ op ∈ ops, op.bufs ⊆ tailSet := by
  have h19 : Proc.devRef .tc main_v19 ∈ tailSet := mem_tailSet_rest main_v19 rfl (by decide)
  have hc3 : Proc.devRef .tc main_cst_3 ∈ tailSet := mem_tailSet_rest main_cst_3 rfl (by decide)
  have h20 : Proc.devRef .tc main_v20 ∈ tailSet := mem_tailSet_rest main_v20 rfl (by decide)
  intro ops hops op hop
  simp only [List.mem_cons, List.mem_nil_iff, or_false] at hops
  subst hops
  simp only [hostOps1, List.mem_cons, List.mem_nil_iff, or_false] at hop
  rcases hop with rfl | rfl | rfl
  · rw [StableHlo.reshape_bufs]; intro b hb
    simp only [Finset.mem_insert, Finset.mem_singleton] at hb
    rcases hb with rfl | rfl
    · exact mem_tailSet_v18
    · exact h19
  · rw [StableHlo.nullary_bufs]; intro b hb
    simp only [Finset.mem_singleton] at hb
    subst hb; exact hc3
  · rw [StableHlo.binary_bufs]; intro b hb
    simp only [Finset.mem_insert, Finset.mem_singleton] at hb
    rcases hb with rfl | rfl | rfl
    · exact h19
    · exact hc3
    · exact h20

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- None of the three operations writes the result word. -/
theorem Vend_v18 (c : Dev nD) : Vend m c (Proc.devRef .tc main_v18) = (dats m 0 c).arrAt 3 cfg0.N := by
  unfold Vend
  rw [StableHlo.after_of_forall_not_mem (b := Proc.devRef .tc main_v18) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide))), Vexit_v18]

/-! ## The tail, run from the call's exit -/

/-- The buffers no window stages, after the three operations. -/
def Zend (c : Dev nD) : sProp 𝕄 :=
  bigSep (Pipeline.restRefs sig spec0) fun b => ((c.tc : Thread nD τ).loc b) ↦{fullShare} Vend m c (Proc.devRef .tc b)

theorem held_exit (c : Dev nD) : (StableHlo.held (c.tc : Thread nD τ) tailSet (Vexit m c) : sProp 𝕄)
    = iprop((((c.tc : Thread nD τ).loc main_v18) ↦{fullShare} (dats m 0 c).arrAt 3 cfg0.N)
        ∗ Pipeline.unscopedRest (Ix := Unit) (Name := ℕ) (U := UR sig nD τ) (Lvl := ℕ) spec0 c (V m c)) := by
  have h : (bigSep (Pipeline.restRefs sig spec0) fun b => ((c.tc : Thread nD τ).loc b) ↦{fullShare} Vexit m c (Proc.devRef .tc b) : sProp 𝕄)
      = Pipeline.unscopedRest (Ix := Unit) (Name := ℕ) (U := UR sig nD τ) (Lvl := ℕ) spec0 c (V m c) :=
    bigSep_congr fun b hb => by rw [Vexit_of_ne m c b (ne_of_mem_of_not_mem hb v18_not_rest)]
  rw [held_tail, Vexit_v18, h]

theorem held_end (c : Dev nD) : (StableHlo.held (c.tc : Thread nD τ) tailSet (Vend m c) : sProp 𝕄)
    = iprop((((c.tc : Thread nD τ).loc main_v18) ↦{fullShare} (dats m 0 c).arrAt 3 cfg0.N) ∗ Zend m c) := by
  rw [held_tail, Vend_v18]
  rfl

set_option backward.isDefEq.respectTransparency.types false in
theorem htail (c : Dev nD) (Q' : PUnit → sProp 𝕄) :
    iprop((iprop((dats m 0 c).arrays ((dats m 0 c).arrAt · cfg0.N) ∗ Zend m c) -∗ Q' ⟨⟩)
        ∗ boundary (c.tc : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (Pipeline.defs (fun q => (cfgs q).toPCfg (Val := Elt F)) defs₀) (Variants.lift Variants.none) (c.tc : Thread nD τ) none) Set.univ
          (Pipeline.chain [StableHlo.seq (hostOps1 (F := F))]) Q' := by
  unfold Dat.arrays
  rw [bigSep_W0, (arr_whole0 0).set_eq_univ, (arr_whole0 2).set_eq_univ, (arr_whole0 3).set_eq_univ]
  iintro ⟨Hk, Hb, ⟨Ha0, Ha1, Ha2, Ha3⟩, HZ⟩
  ihave Hw := (Pipeline.wp_seqs_then (fun q => (cfgs q).toPCfg (Val := Elt F)) defs₀ Variants.none c tailSet [] [hostOps1] tail_sub tail_fresh (Vexit m c)) $$ [Hb Ha3 HZ]
  · rw [held_exit]
    isplitl [Hb]; · iexact Hb
    isplitl [Ha3]; · iexact Ha3
    iexact HZ
  iapply Hw
  iintro Hb
  have he := held_end m c
  unfold Vend at he
  rw [Pipeline.chain_nil, wp_pure, he]
  imodintro
  iapply Hk
  icases Hb with ⟨-, H3, HZ⟩
  isplitr [HZ]
  · isplitl [Ha0]; · iexact Ha0
    isplitl [Ha1]; · iexact Ha1
    isplitl [Ha2]; · iexact Ha2
    iexact H3
  iexact HZ

/-! ## The run -/

/-- Where the run ends: every window's array at what the proof data compute, every other unscoped buffer at its
    contents after the three operations that follow the call. -/
def Post (r : PUnit × MemSt nD τ sig (Elt F)) : Prop :=
  ∀ c : Dev nD, (∀ w, r.2.mem ((spec0 w).arr.view.loc (c.tc : Thread nD τ)) = (dats m 0 c).arrAt w cfg0.N)
    ∧ ∀ b ∈ Pipeline.restRefs sig spec0, r.2.mem ((c.tc : Thread nD τ).loc b) = Vend m c (Proc.devRef .tc b)

set_option backward.isDefEq.respectTransparency.types false in
theorem run_main : θ_run defs (onTc (τ := τ) (main (F := F))) (s₀ m ρ) (Post m) :=
  Pipeline.θ_run_region_noSem_pf_tail (fun q => (cfgs q).toPCfg (Val := Elt F)) (fun q => (cfgs q).toPCfg_adm) (dats m) () cellOf_inj (0 : Fin 1)
    winFacts₀0 (Pipeline.PreFacts.none _) emb₁ defs₀ Variants.none m ρ main (fun _ => Pipeline.chain [StableHlo.seq hostOps1])
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m) (hmain := hmain m Variants.none)
    (hsplit := hsplit m)
    (hpf := fun _ k => k.elim0)
    (X := fun _ => iprop(emp)) (Y := fun _ => iprop(emp))
    (Z := fun c => Pipeline.unscopedRest (Ix := Unit) (Name := ℕ) (U := UR sig nD τ) (Lvl := ℕ) spec0 c (V m c))
    (Z' := Zend m)
    (hX := fun c => by rw [Pipeline.unscopedRestP_none]; iintro H; isplitr; · iempintro
                       iexact H)
    (hin := fun _ => by iintro -; iempintro)
    (hout := fun c => by rw [scopedRest0_eq]; iintro -; isplitr <;> iempintro)
    (htail := htail m)
    (QY := fun c s => ∀ b ∈ Pipeline.restRefs sig spec0, s.mem ((c.tc : Thread nD τ).loc b) = Vend m c (Proc.devRef .tc b))
    (hY := fun c s' => by
      iintro ⟨-, HU, HSI⟩
      unfold Zend
      imodintro
      iapply (pointsTo_read_all (Pipeline.restRefs sig spec0) (fun b => (c.tc : Thread nD τ).loc b) (fun b => Vend m c (Proc.devRef .tc b)) s')
      isplitl [HU] <;> iassumption)
    (hQ := fun s h c => ⟨(h c).1, (h c).2.2⟩)

end Cert.Kernel.Hand

end
-- ==== Proof.KFrame.lean ====
/-
  The frame: the run ends with the three argument arrays unchanged. The two embedding arrays are staged by no window
  and written by no host operation; the target array is an input window's array, which the call never writes.
-/
import proofs.«138480_j65335042507212_2_alg».proof.Proof.Gen.Kernel.Launch
import proofs.«138480_j65335042507212_2_alg».proof.Proof.Gen.Kernel.Skeleton
import proofs.«138480_j65335042507212_2_alg».proof.Proof.Gen.Kernel.Points
import proofs.«138480_j65335042507212_2_alg».proof.Proof.KRun
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No host operation before the call writes an argument array. -/
theorem V_arg (c : Dev nD) (b : Ref sig .tc) (hb : b = main_arg0 ∨ b = main_arg1 ∨ b = main_arg2) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals (rcases hb with rfl | rfl | rfl <;> exact StableHlo.devRef_ne_of_ne (by decide))))

/-- Nor does any of the three after it. -/
theorem Vend_arg (c : Dev nD) (b : Ref sig .tc) (hb : b = main_arg0 ∨ b = main_arg1) :
    Vend m c (Proc.devRef .tc b) = m ((c : Thread nD τ).loc b) := by
  unfold Vend
  rw [StableHlo.after_of_forall_not_mem (b := Proc.devRef .tc b) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals (rcases hb with rfl | rfl <;> exact StableHlo.devRef_ne_of_ne (by decide)))),
    Vexit_of_ne m c b (by rcases hb with rfl | rfl <;> decide)]
  exact V_arg m c b (by rcases hb with rfl | rfl <;> simp)

theorem post_args (r : PUnit × MemSt nD τ sig (Elt F)) (h : Post m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of _ rfl (by decide))).trans (Vend_arg m c main_arg0 (.inl rfl)),
   ((h c).2 main_arg1 (Pipeline.mem_restRefs_of _ rfl (by decide))).trans (Vend_arg m c main_arg1 (.inr rfl)),
   ((h c).1 2).trans (((dats m 0 c).arrAt_in 2 rfl _).trans ((A_eq m c 2).trans (V_arg m c main_arg2 (.inr (.inr rfl)))))⟩

/-- Every weakly fair execution ends, faults nowhere, and leaves the argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => post_args m r h c) (run_main m ρ)

end Cert.Kernel.Hand

end
-- ==== Proof.KIFrame.lean ====
/-
  The frame: the run ends with the three argument arrays unchanged. The two embedding arrays are staged by no window
  and written by no host operation; the target array is an input window's array, which the call never writes.
-/
import proofs.«138480_j65335042507212_2_alg».proof.Proof.Gen.KernelIdeal.Launch
import proofs.«138480_j65335042507212_2_alg».proof.Proof.Gen.KernelIdeal.Skeleton
import proofs.«138480_j65335042507212_2_alg».proof.Proof.Gen.KernelIdeal.Points
import proofs.«138480_j65335042507212_2_alg».proof.Proof.KIRun
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No host operation before the call writes an argument array. -/
theorem V_arg (c : Dev nD) (b : Ref sig .tc) (hb : b = main_arg0 ∨ b = main_arg1 ∨ b = main_arg2) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals (rcases hb with rfl | rfl | rfl <;> exact StableHlo.devRef_ne_of_ne (by decide))))

/-- Nor does any of the three after it. -/
theorem Vend_arg (c : Dev nD) (b : Ref sig .tc) (hb : b = main_arg0 ∨ b = main_arg1) :
    Vend m c (Proc.devRef .tc b) = m ((c : Thread nD τ).loc b) := by
  unfold Vend
  rw [StableHlo.after_of_forall_not_mem (b := Proc.devRef .tc b) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals (rcases hb with rfl | rfl <;> exact StableHlo.devRef_ne_of_ne (by decide)))),
    Vexit_of_ne m c b (by rcases hb with rfl | rfl <;> decide)]
  exact V_arg m c b (by rcases hb with rfl | rfl <;> simp)

theorem post_args (r : PUnit × MemSt nD τ sig (Elt F)) (h : Post m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of _ rfl (by decide))).trans (Vend_arg m c main_arg0 (.inl rfl)),
   ((h c).2 main_arg1 (Pipeline.mem_restRefs_of _ rfl (by decide))).trans (Vend_arg m c main_arg1 (.inr rfl)),
   ((h c).1 2).trans (((dats m 0 c).arrAt_in 2 rfl _).trans ((A_eq m c 2).trans (V_arg m c main_arg2 (.inr (.inr rfl)))))⟩

/-- Every weakly fair execution ends, faults nowhere, and leaves the argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => post_args m r h c) (run_main m ρ)

end Cert.KernelIdeal.Hand

end
-- ==== Proof.LibColumnSum.lean ====
/-
  A column sum of a matrix, read at coordinates.

  A `vector.multi_reduction <add>` of an `[a, b]` matrix over its FIRST axis, read on the extended reals at column `j`, is
  the sum of the column's entries `(k, j)` — the companion, for the first axis, of the row sum over the second. Stated
  twice: for any accumulator word that is the sum's neutral word, and for the zero word `0x00000000` of f32 with the
  hypothesis typed `0x00000000 = 0x00000000`, the form in which a printed kernel body carries it.
-/
import Idealize.ShloMosaic.PureOps.Ideal.Laws
import Idealize.ShloMosaic.Lib.ValueIdx

noncomputable section

namespace Idealize.ShloMosaic.ValueKeepdims

open Idealize.ShloMosaic Idealize.ShloMosaic.ValueIdx

/-- Column `j` with row `k` put back on the reduced first axis is `(k, j)`. -/
theorem lift_axis0_ix2 {a b : ℕ} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext c; apply Fin.ext
  fin_cases c <;> rfl

/-- A `vector.multi_reduction <add>` of an `[a, b]` matrix over its FIRST axis, at column `j`: the column's sum. -/
theorem multiReduction_add_col {a b : ℕ} {φ : FTy} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (j : Fin b) :
    multiReduction .add [0] ⟨1, ![b]⟩ src acc h hφ hacc (ix1 j) = ∑ k : Fin a, src (ix2 k j) := by
  rw [Ideal.multiReduction_add_single]
  exact Finset.sum_congr rfl fun k _ => congrArg src (lift_axis0_ix2 h j k)

/-- A column sum with the zero word as the printed accumulator. -/
theorem colSum_at {a b : ℕ} (src : FVec Ideal ⟨2, ![a, b]⟩ .f32)
    (h : (⟨2, ![a, b]⟩ : Shape).Reduces [0] (⟨1, ![b]⟩ : Shape)) (hφ : FKind.Formats .f32)
    (hacc : (0x00000000#32 : BitVec 32) = 0x00000000#32) (j : Fin b) :
    multiReduction .add [0] ⟨1, ![b]⟩ src 0x00000000#32 h hφ hacc (ix1 j) = ∑ k : Fin a, src (ix2 k j) :=
  multiReduction_add_col src 0x00000000#32 h hφ hacc j

end Idealize.ShloMosaic.ValueKeepdims

end
-- ==== Proof.LibKeepdims.lean ====
/-
  A row reduction kept as a column: the three layout steps of `max(x, axis=-1, keepdims=True)` and
  `sum(x, axis=-1, keepdims=True)` on a matrix, each read at coordinates.

  * a `vector.multi_reduction` of an `[a, b]` matrix over its second axis, at row `i`: the fold of `max` from the
    accumulator's value, or the sum, over the row's entries `(i, k)`;
  * an `[a]` vector cast to the column `[a, 1]`, at `(i, u)`: the vector at `i`;
  * an `[a, 1]` column broadcast to `[a, b]`, at `(i, j)`: the column at `(i, 0)`.
-/
import Idealize.ShloMosaic.PureOps.Ideal.Laws
import Idealize.ShloMosaic.Lib.ValueIdx
import Idealize.ShloMosaic.Lib.Pipeline.Value

noncomputable section

namespace Idealize.ShloMosaic.ValueKeepdims

open Idealize.ShloMosaic Idealize.ShloMosaic.ValueIdx

variable {α : Type}

/-- Row `i` with column `k` put back on the reduced second axis is `(i, k)`. -/
theorem lift_axis1_ix2 {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A float `vector.multi_reduction <maximumf>` of an `[a, b]` matrix over its second axis, read on the extended reals at
    row `i`: the fold of `max`, from the accumulator's value, over the row's entries. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have hf : (src ∘ h.lift (ix1 i)) = fun k : Fin b => src (ix2 i k) :=
    funext fun k => congrArg src (lift_axis1_ix2 h i k)
  exact congrArg (fun f => Finset.fold max (Ideal.ofBits φ acc) f (Finset.univ : Finset (Fin b))) hf

/-- A float `vector.multi_reduction <add>` of an `[a, b]` matrix over its second axis, read on the extended reals at row
    `i`: the sum of the row's entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_axis1_ix2 h i k)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueKeepdims

end
-- ==== Proof.KIPayload.lean ====
/-
  What the body adds to the accumulator, read on the extended reals: the one-word result of the body's arithmetic is
  the word it found plus the tile's sum over rows p and columns q of the squared difference between the row-by-row
  product ∑ₖ a(p,k)·b(q,k) and the target at (p,q).
-/
import proofs.«138480_j65335042507212_2_alg».proof.Proof.Gen.KernelIdeal.Skeleton
import proofs.«138480_j65335042507212_2_alg».proof.Proof.LibColumnSum
import proofs.«138480_j65335042507212_2_alg».proof.Proof.LibKeepdims
import Idealize.ShloMosaic.PureOps.Ideal.Laws
import Idealize.ShloMosaic.Lib.ValueIdx
import Idealize.ShloMosaic.Lib.Pipeline.Value

set_option maxRecDepth 16384

noncomputable section

namespace Cert.KernelIdeal.Payload

open Cert.KernelIdeal Cert.KernelIdeal.Gen
open Idealize.ShloMosaic Idealize.ShloMosaic.ValueIdx Idealize.ShloMosaic.ValueKeepdims

/-- The squared difference of two extended reals. -/
def sqd (a b : EReal) : EReal := (a - b) * (a - b)

/-- The body's contraction: axis 1 of both blocks. -/
abbrev D : DotDims S1024x128 S1024x128 S1024x1024 := dot_S1024x128_S1024x128_S1024x1024_1_1_0_0_n_n

/-- A row sum with the zero word as the printed accumulator. -/
theorem rowSum_at {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32) (i : Fin a) :
    multiReduction .add [1] ⟨1, ![a]⟩ src 0x00000000#32 h hφ hacc (ix1 i) = ∑ k : Fin b, src (ix2 i k) :=
  multiReduction_add_row src 0x00000000#32 h hφ hacc i

theorem lhs_0 (i : S1024x1024.Idx) (q : D.contr.Idx) : (D.lhsIdx i q 0).val = (i 0).val := by
  unfold DotDims.lhsIdx
  rw [dif_neg (show ¬(0 : Fin S1024x128.rank) ∈ D.lhsBatch by decide), dif_pos (show (0 : Fin S1024x128.rank) ∈ D.lhsNonContracting by decide)]
  rfl
theorem lhs_1 (i : S1024x1024.Idx) (q : D.contr.Idx) : (D.lhsIdx i q 1).val = (q ⟨0, by decide⟩).val :=
  D.lhsIdx_val_of_single rfl i q
theorem rhs_0 (i : S1024x1024.Idx) (q : D.contr.Idx) : (D.rhsIdx i q 0).val = (i 1).val := by
  unfold DotDims.rhsIdx
  rw [dif_neg (show ¬(0 : Fin S1024x128.rank) ∈ D.rhsBatch by decide), dif_pos (show (0 : Fin S1024x128.rank) ∈ D.rhsNonContracting by decide)]
  rfl
theorem rhs_1 (i : S1024x1024.Idx) (q : D.contr.Idx) : (D.rhsIdx i q 1).val = (q ⟨0, by decide⟩).val :=
  D.rhsIdx_val_of_single rfl i q

/-- The matrix product of the body into the zero accumulator, entry (p, q): rows p and q of the two blocks contracted. -/
theorem matmul_at (b0 b1 : FVec Ideal S1024x128 .bf16) (p q : Fin 1024) :
    matmul D none b0 b1 (constant S1024x1024 .f32 0x00000000#32) (ix2 p q) = ∑ k : Fin 128, b0 (ix2 p k) * b1 (ix2 q k) := by
  show FloatOps.matmul D none b0 b1 (constant S1024x1024 .f32 0x00000000#32) (ix2 p q) = _
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun a => Fin.ext (by
    match a with
    | ⟨0, _⟩ => exact lhs_0 _ _
    | ⟨1, _⟩ => exact (lhs_1 _ _).trans hk)
  have er : D.rhsIdx (ix2 p q) ((contrEquiv1 D 128 rfl rfl).symm k) = ix2 q k := funext fun a => Fin.ext (by
    match a with
    | ⟨0, _⟩ => exact rhs_0 _ _
    | ⟨1, _⟩ => exact (rhs_1 _ _).trans hk)
  rw [el, er]

/-- The tile's sum of squared differences. -/
def tileSum (b0 b1 : S1024x128.Idx → EReal) (b2 : S1024x1024.Idx → EReal) : EReal :=
  ∑ p : Fin 1024, ∑ q : Fin 1024, sqd (∑ k : Fin 128, b0 (ix2 p k) * b1 (ix2 q k)) (b2 (ix2 p q))

/-- The body's stored word: the word found plus the tile's sum. -/
theorem pay2_apply (b0 b1 : Vec Ideal S1024x128 .bf16) (b2 : Vec Ideal S1024x1024 .f32) (acc : Vec Ideal S1x1 .f32) (j : S1x1.Idx) :
    k0_pay2 (F := Ideal) b0 b1 b2 acc j = acc j + tileSum b0 b1 b2 := by
  obtain ⟨u, v, rfl⟩ : ∃ (u v : Fin 1), j = ix2 u v := ⟨j 0, j 1, eq_ix2 j⟩
  unfold k0_pay2 tileSum
  dsimp only
  rw [addf_apply, shapeCast_self, shapeCast_a_a1_apply, colSum_at]
  refine congrArg (acc (ix2 u v) + ·) (Finset.sum_congr rfl fun p _ => ?_)
  rw [shapeCast_a_a1_apply, rowSum_at]
  refine Finset.sum_congr rfl fun q _ => ?_
  rw [mulf_apply, subf_apply, shapeCast_self, shapeCast_self, matmul_at]
  rfl

/-- The word the body clears the accumulator to is zero. -/
theorem pay1_apply (j : S1x1.Idx) : k0_pay1 (F := Ideal) j = 0 := by
  unfold k0_pay1
  show Ideal.ofBits .f32 0x00000000#32 = 0
  exact Ideal.ofBits_zero_f32

end Cert.KernelIdeal.Payload

end
-- ==== Proof.LibBlockSum.lean ====
/-
  A sum over K * n consecutive indices as K blocks of n.
-/
import Mathlib.Algebra.BigOperators.Fin
import Mathlib.Logic.Equiv.Fin.Basic

namespace Cert.Lib.BlockSum

/-- Position `j` of block `s`, among `K` blocks of `n` consecutive indices. -/
abbrev at_ {K n : ℕ} (s : Fin K) (j : Fin n) : Fin (K * n) :=
  ⟨s.val * n + j.val, Nat.lt_of_lt_of_le (Nat.add_lt_add_left j.isLt _)
    (by rw [← Nat.succ_mul]; exact Nat.mul_le_mul_right _ s.isLt)⟩

/-- A sum over the `K * n` indices below `K * n` is the sum over the `K` blocks of `n` consecutive indices of each
    block's sum: `∑ᵢ H i = ∑ₛ ∑ⱼ H (s n + j)`, in any commutative monoid (no subtraction, no finiteness of values:
    on the extended reals too). -/
theorem sum_blocks {β : Type*} [AddCommMonoid β] (K n : ℕ) (H : Fin (K * n) → β) :
    ∑ i, H i = ∑ s : Fin K, ∑ j : Fin n, H (at_ s j) := by
  rw [← Equiv.sum_comp finProdFinEquiv H, Fintype.sum_prod_type]
  refine Finset.sum_congr rfl fun s _ => Finset.sum_congr rfl fun j _ => congrArg H (Fin.ext ?_)
  show j.val + n * s.val = s.val * n + j.val
  rw [Nat.mul_comm, Nat.add_comm]

end Cert.Lib.BlockSum
-- ==== Proof.LibTileSum.lean ====
/-
  Two facts about finite sums in a commutative monoid (the extended reals included: no subtraction, no finiteness).

  * A sum over a (K·n) × (K·n) square is the sum over its K × K tiles, taken in row-major order of the tiles, of each
    tile's n × n sum.
  * A running total that starts from zero plus the first term and adds one term per step is the sum of the terms so far.
-/
import Mathlib.Algebra.BigOperators.Fin
import Mathlib.Algebra.BigOperators.Intervals
import Mathlib.Logic.Equiv.Fin.Basic
import proofs.«138480_j65335042507212_2_alg».proof.Proof.LibBlockSum

namespace Cert.TileSum

open Cert.Lib.BlockSum

/-- The tile row of tile `t`, tiles counted row by row. -/
abbrev trow {K : ℕ} (t : Fin (K * K)) : Fin K :=
  ⟨t.val / K, Nat.div_lt_of_lt_mul t.isLt⟩

/-- The tile column of tile `t`. -/
abbrev tcol {K : ℕ} (t : Fin (K * K)) : Fin K :=
  ⟨t.val % K, Nat.mod_lt _ (Nat.pos_of_ne_zero fun h => by have := t.pos; simp [h] at this)⟩

theorem trow_at {K : ℕ} (i j : Fin K) : trow (at_ i j) = i := by
  apply Fin.ext
  show (i.val * K + j.val) / K = i.val
  have hK : 0 < K := i.pos
  rw [Nat.mul_comm, Nat.mul_add_div hK, Nat.div_eq_of_lt j.isLt, Nat.add_zero]

theorem tcol_at {K : ℕ} (i j : Fin K) : tcol (at_ i j) = j := by
  apply Fin.ext
  show (i.val * K + j.val) % K = j.val
  rw [Nat.mul_comm, Nat.mul_add_mod, Nat.mod_eq_of_lt j.isLt]

/-- The square's sum is the sum over the tiles of the tiles' sums. -/
theorem sum_tiles {β : Type*} [AddCommMonoid β] (K n : ℕ) (g : Fin (K * n) → Fin (K * n) → β) :
    ∑ r, ∑ c, g r c = ∑ t : Fin (K * K), ∑ p : Fin n, ∑ q : Fin n, g (at_ (trow t) p) (at_ (tcol t) q) := by
  rw [sum_blocks K K (fun t => ∑ p : Fin n, ∑ q : Fin n, g (at_ (trow t) p) (at_ (tcol t) q))]
  simp only [trow_at, tcol_at]
  rw [sum_blocks K n (fun r => ∑ c, g r c)]
  refine Finset.sum_congr rfl fun i _ => ?_
  rw [Finset.sum_comm (s := Finset.univ) (t := Finset.univ) (f := fun (j : Fin K) (p : Fin n) => ∑ q : Fin n, g (at_ i p) (at_ j q))]
  exact Finset.sum_congr rfl fun p _ => sum_blocks K n (fun c => g (at_ i p) c)

/-- A running total from zero. -/
theorem running_total {β : Type*} [AddCommMonoid β] (T acc : ℕ → β) (h0 : acc 0 = 0 + T 0)
    (hs : ∀ n, acc (n + 1) = acc n + T (n + 1)) (n : ℕ) : acc n = ∑ t ∈ Finset.range (n + 1), T t := by
  induction n with
  | zero => rw [h0, zero_add, Finset.sum_range_one]
  | succ n ih => rw [hs, ih, Finset.sum_range_succ _ (n + 1)]

end Cert.TileSum
-- ==== Proof.KIValue.lean ====
/-
  The value of the kernel's result on the extended reals. With R the array of normalised rows (8192 × 128) and C the
  target array (8192 × 8192), write g(r, c) = (∑ₖ R(r,k)·R(c,k) − C(r,c))². Grid point t = 8·i + j reads rows
  1024·i + p of R, rows 1024·j + q of R and the tile (1024·i + p, 1024·j + q) of C, so its tile sum is
  ∑ₚ ∑_q g(1024·i + p, 1024·j + q). The accumulator starts from zero and adds one tile sum per point, so after the last
  point it holds the sum of all 64 tile sums, which is ∑ᵣ ∑_c g(r, c): addition on the extended reals is commutative
  and associative, and no other law is used. The host then divides that word by 2²⁶.
-/
import proofs.«138480_j65335042507212_2_alg».proof.Proof.KIFrame
import proofs.«138480_j65335042507212_2_alg».proof.Proof.KIPayload
import proofs.«138480_j65335042507212_2_alg».proof.Proof.LibTileSum
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.Payload Cert.TileSum Cert.Lib.BlockSum
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ)

/-- The squared difference at row `r`, column `c` of the full square. -/
def gsq (R : S8192x128.Idx → EReal) (C : S8192x8192.Idx → EReal) (r c : Fin 8192) : EReal :=
  sqd (∑ k : Fin 128, R (ix2 r k) * R (ix2 c k)) (C (ix2 r c))

/-- The sum over the full square. -/
def total (R : S8192x128.Idx → EReal) (C : S8192x8192.Idx → EReal) : EReal := ∑ r : Fin 8192, ∑ c : Fin 8192, gsq R C r c

/-! ## The blocks a grid point reads -/

theorem idx_facts : ∀ t : Fin cfg0.N, win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = t.val % 8 :=
  (by decide +kernel : ∀ t : Fin grid0.N, _)

theorem idx_facts3 : ∀ t : Fin cfg0.N, win0_3.index t (0 : Fin 2) = 0 ∧ win0_3.index t (1 : Fin 2) = 0 :=
  (by decide +kernel : ∀ t : Fin grid0.N, _)

/-- A one-by-one array has one index. -/
theorem idx11_eq (a b : S1x1.Idx) : a = b := funext fun d => Fin.ext (by
  match d with
  | ⟨0, _⟩ => show (a 0).val = (b 0).val; have h1 : (a 0).val < 1 := (a 0).isLt; have h2 : (b 0).val < 1 := (b 0).isLt; omega
  | ⟨1, _⟩ => show (a 1).val = (b 1).val; have h1 : (a 1).val < 1 := (a 1).isLt; have h2 : (b 1).val < 1 := (b 1).isLt; omega)

/-- A grid point as a tile of the 8 × 8 tiling. -/
def tile8 (t : Fin cfg0.N) : Fin (8 * 8) := ⟨t.val, lt_of_lt_of_eq t.isLt N_0⟩

/-- Row `p` of the point's row block, in the full array. -/
def rowIx (t : Fin cfg0.N) (p : Fin 1024) : Fin 8192 := at_ (K := 8) (n := 1024) (trow (tile8 t)) p
/-- Row `q` of the point's column block, in the full array. -/
def colIx (t : Fin cfg0.N) (q : Fin 1024) : Fin 8192 := at_ (K := 8) (n := 1024) (tcol (tile8 t)) q

theorem iblk0_at (c : Dev nD) (t : Fin cfg0.N) (p : Fin 1024) (k : Fin 128) :
    (iblk m c 0 t : S1024x128.Idx → EReal) (ix2 p k) = (V m c main_v17 : S8192x128.Idx → EReal) (ix2 (rowIx t p) k) := by
  obtain ⟨e0, e1, e2, e3, e4, e5⟩ := idx_facts t
  show (V m c main_v17 : S8192x128.Idx → EReal) (((cfg0.win 0).blk t).view.emb (ix2 p k)) = _
  refine congrArg (V m c main_v17 : S8192x128.Idx → EReal) (funext fun a => Fin.ext ?_)
  match a with
  | ⟨0, _⟩ => show win0_0.index t (0 : Fin 2) * 1024 + 1 * p.val = (t.val / 8) * 1024 + p.val; omega
  | ⟨1, _⟩ => show win0_0.index t (1 : Fin 2) * 128 + 1 * k.val = k.val; omega

theorem iblk1_at (c : Dev nD) (t : Fin cfg0.N) (q : Fin 1024) (k : Fin 128) :
    (iblk m c 1 t : S1024x128.Idx → EReal) (ix2 q k) = (V m c main_v17 : S8192x128.Idx → EReal) (ix2 (colIx t q) k) := by
  obtain ⟨e0, e1, e2, e3, e4, e5⟩ := idx_facts t
  show (V m c main_v17 : S8192x128.Idx → EReal) (((cfg0.win 1).blk t).view.emb (ix2 q k)) = _
  refine congrArg (V m c main_v17 : S8192x128.Idx → EReal) (funext fun a => Fin.ext ?_)
  match a with
  | ⟨0, _⟩ => show win0_1.index t (0 : Fin 2) * 1024 + 1 * q.val = (t.val % 8) * 1024 + q.val; omega
  | ⟨1, _⟩ => show win0_1.index t (1 : Fin 2) * 128 + 1 * k.val = k.val; omega

theorem iblk2_at (c : Dev nD) (t : Fin cfg0.N) (p q : Fin 1024) :
    (iblk m c 2 t : S1024x1024.Idx → EReal) (ix2 p q) = (V m c main_arg2 : S8192x8192.Idx → EReal) (ix2 (rowIx t p) (colIx t q)) := by
  obtain ⟨e0, e1, e2, e3, e4, e5⟩ := idx_facts t
  show (V m c main_arg2 : S8192x8192.Idx → EReal) (((cfg0.win 2).blk t).view.emb (ix2 p q)) = _
  refine congrArg (V m c main_arg2 : S8192x8192.Idx → EReal) (funext fun a => Fin.ext ?_)
  match a with
  | ⟨0, _⟩ => show win0_2.index t (0 : Fin 2) * 1024 + 1 * p.val = (t.val / 8) * 1024 + p.val; omega
  | ⟨1, _⟩ => show win0_2.index t (1 : Fin 2) * 1024 + 1 * q.val = (t.val % 8) * 1024 + q.val; omega

/-- The tile sum of a grid point, over the full arrays. -/
theorem tile_eq (c : Dev nD) (t : Fin cfg0.N) :
    tileSum (iblk m c 0 t) (iblk m c 1 t) (iblk m c 2 t)
      = ∑ p : Fin 1024, ∑ q : Fin 1024, gsq (V m c main_v17) (V m c main_arg2) (rowIx t p) (colIx t q) := by
  unfold tileSum gsq
  refine Finset.sum_congr rfl fun p _ => Finset.sum_congr rfl fun q _ => ?_
  rw [iblk2_at]
  refine congrArg (sqd · _) (Finset.sum_congr rfl fun k _ => ?_)
  rw [iblk0_at, iblk1_at]

/-! ## The accumulator -/

/-- The tile sum of point number `n` (zero past the grid). -/
def tileN (c : Dev nD) (n : ℕ) : EReal :=
  if h : n < cfg0.N then tileSum (iblk m c 0 ⟨n, h⟩) (iblk m c 1 ⟨n, h⟩) (iblk m c 2 ⟨n, h⟩) else 0

theorem accAt_apply (c : Dev nD) (j : S1x1.Idx) : ∀ (n : ℕ) (hn : n < cfg0.N),
    (accAt m c n hn : S1x1.Idx → EReal) j = ∑ t ∈ Finset.range (n + 1), tileN m c t
  | 0, hn => by
    show k0_pay2 (F := Ideal) _ _ _ _ j = _
    rw [pay2_apply, pay1_apply, zero_add, Finset.sum_range_one]
    unfold tileN; rw [dif_pos hn]
  | n + 1, hn => by
    show k0_pay2 (F := Ideal) _ _ _ _ j = _
    rw [pay2_apply, accAt_apply c j n (Nat.lt_of_succ_lt hn), Finset.sum_range_succ _ (n + 1)]
    refine congrArg (_ + ·) ?_
    unfold tileN; rw [dif_pos hn]

/-- All 64 tile sums together are the sum over the full square. -/
theorem sum_tileN (c : Dev nD) : ∑ t ∈ Finset.range 64, tileN m c t = total (V m c main_v17) (V m c main_arg2) := by
  unfold total
  rw [show (∑ r : Fin 8192, ∑ c' : Fin 8192, gsq (V m c main_v17) (V m c main_arg2) r c')
      = ∑ t : Fin (8 * 8), ∑ p : Fin 1024, ∑ q : Fin 1024, gsq (V m c main_v17) (V m c main_arg2) (at_ (K := 8) (n := 1024) (trow t) p) (at_ (K := 8) (n := 1024) (tcol t) q)
    from sum_tiles 8 1024 (gsq (V m c main_v17) (V m c main_arg2))]
  rw [← Fin.sum_univ_eq_sum_range (fun t => tileN m c t) 64]
  refine Finset.sum_congr rfl fun t _ => ?_
  have ht : t.val < cfg0.N := lt_of_lt_of_eq t.isLt N_0.symm
  unfold tileN
  rw [dif_pos ht, tile_eq]
  rfl

/-! ## The result word after the call, and after the host's division -/

theorem h63 : 63 < cfg0.N := lt_of_lt_of_eq (by decide) N_0.symm

/-- The call leaves the accumulator's last contents in the result array: it is written back after the last point only. -/
theorem final_v18 (c : Dev nD) : (dats m 0 c).arrAt 3 cfg0.N = accAt m c 63 h63 := by
  refine (dats m 0 c).arrAt_eq_of_cover 3 (accAt m c 63 h63) (fun t hf => ?_) (fun i => ?_)
  · have h : t.val % 64 = 63 := (flush0_3 t).mp hf
    have hN : t.val < 64 := lt_of_lt_of_eq t.isLt N_0
    have e : t = ⟨63, h63⟩ := Fin.ext (by show t.val = 63; omega)
    subst e
    show (cfg0.win 3).cut (grid0.coords ⟨63, h63⟩) ((dats m 0 c).after 3 ⟨63, h63⟩) = _
    rw [after_3]
    funext y
    show accAt m c 63 h63 y = accAt m c 63 h63 (((cfg0.win 3).blk ⟨63, h63⟩).view.emb y)
    exact congrArg (accAt m c 63 h63 : S1x1.Idx → EReal) (idx11_eq _ _)
  · refine ⟨⟨63, h63⟩, (flush0_3 _).mpr rfl, ?_⟩
    show i ∈ ((View.whole main_v18).slice (win0_3.rect ⟨63, h63⟩)).set
    rw [View.set_slice_whole, Rect.mem_set_unit]
    obtain ⟨e0, e1⟩ := idx_facts3 ⟨63, h63⟩
    intro a
    match a with
    | ⟨0, _⟩ =>
      show win0_3.index ⟨63, h63⟩ (0 : Fin 2) * 1 ≤ (i 0).val ∧ (i 0).val < win0_3.index ⟨63, h63⟩ (0 : Fin 2) * 1 + 1
      have h1 : (i 0).val < 1 := (i 0).isLt
      omega
    | ⟨1, _⟩ =>
      show win0_3.index ⟨63, h63⟩ (1 : Fin 2) * 1 ≤ (i 1).val ∧ (i 1).val < win0_3.index ⟨63, h63⟩ (1 : Fin 2) * 1 + 1
      have h1 : (i 1).val < 1 := (i 1).isLt
      omega

/-- The word the kernel returns: the full square's sum divided by 2²⁶. -/
theorem result_word (c : Dev nD) (i : S_.Idx) :
    (Vend m c (Proc.devRef .tc main_v20) : S_.Idx → EReal) i
      = Ideal.div (total (V m c main_v17) (V m c main_arg2)) (Ideal.ofBits .f32 0x4C800000#32) := by
  have hv : (Vend m c (Proc.devRef .tc main_v20) : S_.Idx → EReal)
      = Host.divf (F := Ideal) (shapeCast S_ (Vexit m c (Proc.devRef .tc main_v18) : S1x1.Idx → EReal) shapeCasts_S1x1_S_) (constant S_ .f32 0x4C800000#32) := by
    unfold Vend
    simp only [hostOps1, List.flatten_cons, List.flatten_nil, List.append_nil]
    after_results
    rfl
  have hi : i = fun a => a.elim0 := funext fun a => a.elim0
  subst hi
  rw [hv, Vexit_v18, final_v18]
  show Ideal.div (shapeCast S_ (accAt m c 63 h63 : S1x1.Idx → EReal) shapeCasts_S1x1_S_ _) _ = _
  rw [shapeCast_apply (accAt m c 63 h63 : S1x1.Idx → EReal) shapeCasts_S1x1_S_ _ (ix2 0 0) (by decide), accAt_apply, sum_tileN]
  rfl

end Cert.KernelIdeal.Hand

end
-- ==== Proof.RefValue.lean ====
/-
  The reference's result on the extended reals, and that it is the kernel's. The reference forms the full product
  R·Rᵀ of the normalised rows with their transpose, subtracts the targets, squares, sums over the whole square from
  zero and divides by 2²⁶: with g(r, c) = (∑ₖ R(r,k)·R(c,k) − C(r,c))² that is (∑ᵣ ∑_c g(r, c)) / 2²⁶, the word the
  kernel returns. The kernel's rows are the reference's: the same host operations build them, and the kernel's final
  change of format is the identity on the extended reals.
-/
import proofs.«138480_j65335042507212_2_alg».proof.Proof.KIValue
import proofs.«138480_j65335042507212_2_alg».proof.Proof.Gen.ReferenceIdeal.Read

set_option maxRecDepth 16384

noncomputable section

namespace Cert.ReferenceIdeal.RefValue

open Cert.ReferenceIdeal Cert.ReferenceIdeal.Gen Cert.ReferenceIdeal.Read
open Cert.KernelIdeal.Payload (sqd)
open Cert.KernelIdeal.Hand (gsq total)
open Idealize.ShloMosaic Idealize.ShloMosaic.TcCoe Idealize.ShloMosaic.Tactic Idealize.ShloMosaic.ValueIdx
open Idealize.SL Idealize.SL.Sem

/-- The reference's squared difference at (r, c) is g(r, c) of its rows and the targets. -/
theorem sq_at (x0 x1 : (⟨S4096x128, .f32⟩ : BufTy).Contents (Elt Ideal)) (x2 : (⟨S8192x8192, .f32⟩ : BufTy).Contents (Elt Ideal))
    (r c : Fin 8192) : val_main_v20 (F := Ideal) x0 x1 x2 (ix2 r c) = gsq (val_main_v16 (F := Ideal) x0 x1) x2 r c := by
  have el : ∀ k : Fin 128, lidx_main_v18 (ix2 r c) k = ix2 r k := fun k =>
    funext fun a => Fin.ext (by match a with | ⟨0, _⟩ => rfl | ⟨1, _⟩ => rfl)
  have er : ∀ k : Fin 128, idx_main_v17 (ridx_main_v18 (ix2 r c) k) = ix2 c k := fun k =>
    funext fun a => Fin.ext (by match a with | ⟨0, _⟩ => rfl | ⟨1, _⟩ => rfl)
  rw [val_main_v20_apply, val_main_v19_apply, val_main_v18_apply]
  unfold gsq sqd
  simp only [val_main_v17_apply, el, er]
  rfl

/-- The reference's result word: the full square's sum divided by 2²⁶. -/
theorem ref_word (x0 x1 : (⟨S4096x128, .f32⟩ : BufTy).Contents (Elt Ideal)) (x2 : (⟨S8192x8192, .f32⟩ : BufTy).Contents (Elt Ideal)) (i : S_.Idx) :
    val_main_v22 (F := Ideal) x0 x1 x2 i = Ideal.div (total (val_main_v16 (F := Ideal) x0 x1) x2) (Ideal.ofBits .f32 0x4C800000#32) := by
  rw [val_main_v22_apply, val_main_v21_apply, val_main_cst_3_apply, val_main_cst_4_apply]
  show Ideal.div (Ideal.ofBits .f32 0x00000000#32 + _) _ = _
  rw [Ideal.ofBits_zero_f32, zero_add, sum_idx2]
  unfold total
  simp only [sq_at]
  rfl

end Cert.ReferenceIdeal.RefValue

/-! ## The kernel's rows are the reference's -/

namespace Cert.KernelIdeal.Hand

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ)

theorem V_v17 (c : Dev nD) : (V m c main_v17 : S8192x128.Idx → EReal)
    = Cert.ReferenceIdeal.Read.val_main_v16 (F := Ideal) (m ((c : Thread nD τ).loc main_arg0)) (m ((c : Thread nD τ).loc main_arg1)) := by
  dsimp only [V]
  simp only [hostOps0, List.flatten_cons, List.flatten_nil, List.append_nil]
  after_results
  rfl

end Cert.KernelIdeal.Hand

end
-- ==== Proof.lean ====
/-
  The certificate of the tiled mean-squared-error kernel against its reference.

  Both programs normalise the rows of the two embedding arrays, stack them into R (8192 × 128) and return the mean
  over the 8192 × 8192 square of (∑ₖ R(r,k)·R(c,k) − C(r,c))². The reference forms the whole product on the host;
  the kernel walks an 8 × 8 grid of 1024 × 1024 tiles, adding each tile's sum of squares to a one-word accumulator
  that it clears at the first tile, and the host divides the word by 2²⁶ afterwards.

  Frames: the call's launch with the host operations before and after it, for the program as printed and for its
  idealization (the two windows on R each hold half of it; nothing writes an argument); the reference is a straight
  line of host operations. The idealization rewrote nothing. On the extended reals the two results are one number:
  the 64 tile sums regroup the reference's one sum, and addition there is commutative and associative.
-/
import proofs.«138480_j65335042507212_2_alg».proof.Defs
import proofs.«138480_j65335042507212_2_alg».proof.Proof.Gen.Kernel
import proofs.«138480_j65335042507212_2_alg».proof.Proof.Gen.Kernel.Skeleton
import proofs.«138480_j65335042507212_2_alg».proof.Proof.Gen.Kernel.Launch
import proofs.«138480_j65335042507212_2_alg».proof.Proof.Gen.Kernel.Points
import proofs.«138480_j65335042507212_2_alg».proof.Proof.Gen.KernelIdeal
import proofs.«138480_j65335042507212_2_alg».proof.Proof.Gen.KernelIdeal.Skeleton
import proofs.«138480_j65335042507212_2_alg».proof.Proof.Gen.KernelIdeal.Launch
import proofs.«138480_j65335042507212_2_alg».proof.Proof.Gen.KernelIdeal.Points
import proofs.«138480_j65335042507212_2_alg».proof.Proof.Gen.ReferenceIdeal
import proofs.«138480_j65335042507212_2_alg».proof.Proof.Gen.Pre_finite_inputs
import proofs.«138480_j65335042507212_2_alg».proof.Proof.Gen.ReferenceIdeal.Run
import proofs.«138480_j65335042507212_2_alg».proof.Proof.Gen.ReferenceIdeal.Read
import proofs.«138480_j65335042507212_2_alg».proof.Proof.KFrame
import proofs.«138480_j65335042507212_2_alg».proof.Proof.KIFrame
import proofs.«138480_j65335042507212_2_alg».proof.Proof.KIValue
import proofs.«138480_j65335042507212_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end with the result word at the full square's sum over 2²⁶, of the same rows and targets. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => fun _ => Ideal.div (Cert.KernelIdeal.Hand.total (Cert.KernelIdeal.Hand.V m c Cert.KernelIdeal.main_v17)
      (Cert.KernelIdeal.Hand.V m c Cert.KernelIdeal.main_arg2)) (Ideal.ofBits .f32 0x4C800000#32), ?_, ?_⟩
  · refine (θ_run Cert.KernelIdeal.defs _ _).mono (fun r h c => ⟨?_, Cert.KernelIdeal.Hand.post_args m r h c⟩)
      (Cert.KernelIdeal.Hand.run_main (F := Ideal) m ρ)
    exact ((h c).2 Cert.KernelIdeal.main_v20 (Pipeline.mem_restRefs_of _ rfl (by decide))).trans
      (funext fun i => Cert.KernelIdeal.Hand.result_word m c i)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v22_eq, (hagree c).1, (hagree c).2.1, (hagree c).2.2]
    funext i
    show _ = Ideal.div (Cert.KernelIdeal.Hand.total (Cert.KernelIdeal.Hand.V m c Cert.KernelIdeal.main_v17)
      (Cert.KernelIdeal.Hand.V m c Cert.KernelIdeal.main_arg2)) (Ideal.ofBits .f32 0x4C800000#32)
    rw [Cert.ReferenceIdeal.RefValue.ref_word, Cert.KernelIdeal.Hand.V_v17,
      Cert.KernelIdeal.Hand.V_arg m c Cert.KernelIdeal.main_arg2 (.inr (.inr rfl))]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
